-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S2x2048x1024 .f32) (main_arg1 : FVec F S1024x3072 .f32) (main_arg2 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S2x2048x1024 : Shape := ⟨3, ![2, 2048, 1024]⟩
abbrev S1024x3072 : Shape := ⟨2, ![1024, 3072]⟩
abbrev S3072 : Shape := ⟨1, ![3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2x2048x16x64 : Shape := ⟨4, ![2, 2048, 16, 64]⟩

abbrev nBuf : Space → Nat
  | .hbm => 19
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S4096x1024, .f32⟩
  | .hbm, ⟨4, _⟩ => ⟨S4096x1024, .bf16⟩
  | .hbm, ⟨5, _⟩ => ⟨S1024x3072, .bf16⟩
  | .hbm, ⟨6, _⟩ => ⟨S4096x3072, .bf16⟩
  | .hbm, ⟨7, _⟩ => ⟨S2x2048x16x192, .bf16⟩
  | .hbm, ⟨8, _⟩ => ⟨S2x16x2048x192, .bf16⟩
  | .hbm, ⟨9, _⟩ => ⟨S2x16x2048x64, .bf16⟩
  | .hbm, ⟨10, _⟩ => ⟨S2x16x2048x64, .bf16⟩
  | .hbm, ⟨11, _⟩ => ⟨S2x16x2048x64, .bf16⟩
  | .hbm, ⟨12, _⟩ => ⟨S32x2048x64, .bf16⟩
  | .hbm, ⟨13, _⟩ => ⟨S32x2048x64, .bf16⟩
  | .hbm, ⟨14, _⟩ => ⟨S32x2048x64, .bf16⟩
  | .hbm, ⟨15, _⟩ => ⟨S32x2048x64, .f32⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .f32⟩
  | .local _ .vmem, ⟨13, _⟩ => ⟨S1x512x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S2x2048x3072, .f32⟩
  | .hbm, ⟨4, _⟩ => ⟨S1x1x3072, .f32⟩
  | .hbm, ⟨5, _⟩ => ⟨S2x2048x3072, .f32⟩
  | .hbm, ⟨6, _⟩ => ⟨S2x2048x3072, .f32⟩
  | .hbm, ⟨7, _⟩ => ⟨S2x2048x16x192, .f32⟩
  | .hbm, ⟨8, _⟩ => ⟨S2x16x2048x192, .f32⟩
  | .hbm, ⟨9, _⟩ => ⟨S2x16x2048x64, .f32⟩
  | .hbm, ⟨10, _⟩ => ⟨S2x16x2048x64, .f32⟩
  | .hbm, ⟨11, _⟩ => ⟨S2x16x2048x64, .f32⟩
  | .hbm, ⟨12, _⟩ => ⟨S2x16x2048x2048, .f32⟩
  | .hbm, ⟨13, _⟩ => ⟨S_, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.WholeRun.lean ====
/-
  The whole run of the idealized kernel, with its result named.

  The program is three stretches of host operations around two kernel regions. Reading the buffers' contents
  forward through these five segments gives the contents at the last boundary, `W5`; every weakly fair execution
  terminates with every unscoped buffer holding exactly those contents. The frame claim keeps of that only the three
  argument arrays; here the result buffer is kept as well: it ends holding `W5` at the result, and what that is —
  the last stretch applied to the second region's output array — is read off in the modules that follow.
-/
import proofs.«108356_j5652176961587_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the three argument arrays as launched. -/
theorem run_result : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.WholeRun

end
-- ==== Proof.LibAttention.lean ====
/-
  One entry of an affine projection and one row of scaled dot-product attention, as functions on the extended reals.

  For a query row `q`, key rows `K k` and value rows `V k`:
    score k   = (∑ j, q j · K k j) · c
    top       = max lo (max over k of score k, starting from lo)
    e k       = exp (score k − top)
    weight k  = e k / ∑ k', e k'
    out v     = ∑ k, weight k · V k v
  Nothing here uses that the entries are finite: the definitions are the textbook ones read on the extended reals,
  with the library's total `exp` and quotient.

  The scale: the square root of sixty-four is eight, so a program that multiplies the scores by `sqrt 64` and one that
  multiplies them by the literal `8` use one scale.
-/
import Idealize.ShloMosaic.PureOps.Ideal
import Mathlib.Algebra.BigOperators.Fin

noncomputable section

namespace Cert.Attention

open Idealize.ShloMosaic

/-- One entry of `x · W + b`: the row `x` against the column `w`, plus the bias entry. -/
def project {d : ℕ} (x w : Fin d → EReal) (bias : EReal) : EReal :=
  (∑ k : Fin d, x k * w k) + bias

/-- The scores of one query row against every key row, each times the scale `c`. -/
def scores {n d : ℕ} (c : EReal) (q : Fin d → EReal) (K : Fin n → Fin d → EReal) (k : Fin n) : EReal :=
  (∑ j : Fin d, q j * K k j) * c

/-- The largest score of the row, taken from the floor `lo` upward and floored at `lo` once more. -/
def top {n : ℕ} (lo : EReal) (sc : Fin n → EReal) : EReal :=
  max lo ((Finset.univ : Finset (Fin n)).fold max lo sc)

/-- A score shifted by the row's top, exponentiated. -/
def expShift {n : ℕ} (lo : EReal) (sc : Fin n → EReal) (k : Fin n) : EReal :=
  Ideal.exp (sc k - top lo sc)

/-- The softmax weight of key `k`: its shifted exponential over the sum of the row's. -/
def weight {n : ℕ} (lo : EReal) (sc : Fin n → EReal) (k : Fin n) : EReal :=
  Ideal.div (expShift lo sc k) (∑ k' : Fin n, expShift lo sc k')

/-- One entry of the attention output: the weights of the row against column `v` of the values. -/
def attend {n d e : ℕ} (c lo : EReal) (q : Fin d → EReal) (K : Fin n → Fin d → EReal) (V : Fin n → Fin e → EReal)
    (v : Fin e) : EReal :=
  ∑ k : Fin n, weight lo (scores c q K) k * V k v

/-- The single-precision pattern of `64.0` denotes the real sixty-four. -/
theorem ofBits_64 : Ideal.ofBits .f32 0x42800000#32 = ((64 : ℝ) : EReal) := by
  simp [Ideal.ofBits, Ideal.ieee, -EReal.coe_mul]; norm_num

/-- The single-precision pattern of `8.0` denotes the real eight. -/
theorem ofBits_8 : Ideal.ofBits .f32 0x41000000#32 = ((8 : ℝ) : EReal) := by
  simp [Ideal.ofBits, Ideal.ieee, -EReal.coe_mul]; norm_num

/-- The square root of sixty-four is eight: the two spellings of the scale are one extended real. -/
theorem sqrt_64 : Ideal.sqrt (Ideal.ofBits .f32 0x42800000#32) = Ideal.ofBits .f32 0x41000000#32 := by
  rw [ofBits_64, ofBits_8, Ideal.sqrt_coe, if_neg (by norm_num)]
  have h : Real.sqrt 64 = 8 := by
    rw [show (64 : ℝ) = 8 ^ 2 by norm_num]
    exact Real.sqrt_sq (by norm_num)
  rw [h]

end Cert.Attention

end
-- ==== Proof.Payloads.lean ====
/-
  What each kernel body computes, read at one index of the block it stores.

  The projection body stores, at row `r` and column `e` of its block, the row `r` of its first operand against
  column `e` of its second, plus entry `e` of the bias: one entry of an affine projection.
  The attention body stores, at row `r` and column `u` of its block, the attention output of query row `r`
  against all the key and value rows of the head, with the scale eight and the floor minus infinity.
-/
import proofs.«108356_j5652176961587_1_alg».proof.Proof.Gen.KernelIdeal.Skeleton
import proofs.«108356_j5652176961587_1_alg».proof.Proof.LibAttention
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Cert.Attention

/-! ## The projection body -/

/-- The left operand's index at output index i and contraction index q: its row is the output's row. -/
theorem proj_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- … and its column is the contraction coordinate. -/
theorem proj_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- The right operand's row is the contraction coordinate … -/
theorem proj_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- … and its column is the output's column. -/
theorem proj_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The projection's matrix product at (r, e): the sum over the 1024 contracted coordinates. -/
theorem proj_matmul (a : FVec Ideal S512x1024 .bf16) (w : FVec Ideal S1024x3072 .bf16) (r : Fin 512) (e : Fin 3072) :
    matmul (F := Ideal) dot_S512x1024_S1024x3072_S512x3072_1_0_0_1_n_n none a w (constant S512x3072 .f32 0x00000000#32) (ix2 r e)
      = ∑ d : Fin 1024, a (ix2 r d) * w (ix2 d e) := by
  refine (Ideal.matmul_constant_zero_apply dot_S512x1024_S1024x3072_S512x3072_1_0_0_1_n_n none a w (ix2 r e)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r e) ((ValueIdx.contrEquiv1 dot_S512x1024_S1024x3072_S512x3072_1_0_0_1_n_n 1024 rfl rfl).symm k) = ix2 r k := funext fun ax => Fin.ext (by
    match ax with
    | ⟨0, _⟩ => exact proj_lhs_0 _ _
    | ⟨1, _⟩ => exact (proj_lhs_1 _ _).trans hk)
  have er : dot_S512x1024_S1024x3072_S512x3072_1_0_0_1_n_n.rhsIdx (ix2 r e) ((ValueIdx.contrEquiv1 dot_S512x1024_S1024x3072_S512x3072_1_0_0_1_n_n 1024 rfl rfl).symm k) = ix2 k e := funext fun ax => Fin.ext (by
    match ax with
    | ⟨0, _⟩ => exact (proj_rhs_0 _ _).trans hk
    | ⟨1, _⟩ => exact proj_rhs_1 _ _)
  rw [el, er]

/-- The projection body's stored value at (r, e): the sum over the contracted axis of the products, plus the bias. -/
theorem proj_payload (a : Vec Ideal S512x1024 .bf16) (w : Vec Ideal S1024x3072 .bf16) (bias : Vec Ideal S3072 .f32)
    (r : Fin 512) (e : Fin 3072) :
    k0_pay1 (F := Ideal) a w bias (ix2 r e)
      = project (fun d : Fin 1024 => a (ix2 r d)) (fun d : Fin 1024 => w (ix2 d e)) (bias (ix1 e)) := by
  unfold k0_pay1
  rw [shapeCast_self, shapeCast_self]
  refine (truncf_apply (φ := .f32) (ψ := .bf16) _ bitsLt_bf16_f32 (ix2 r e)).trans ?_
  refine (addf_apply _ _ _).trans ?_
  unfold project
  refine congrArg₂ (· + ·) (proj_matmul a w r e) ?_
  refine (broadcastTo_1b_ab_apply _ _ r e).trans ?_
  exact shapeCast_a_1a_apply bias _ 0 e

/-! ## The two matrix products of the attention body -/

/-- The query block's index at an output index and a contraction index: its row is the output's row. -/
theorem qk_lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- … and its column is the contraction coordinate. -/
theorem qk_lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
/-- The right operand's row is the contraction coordinate … -/
theorem qk_rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- … and its column is the output's column. -/
theorem qk_rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The query block against the transposed key block at (r, e): the sum over the 64 head coordinates. -/
theorem qk_matmul (a : FVec Ideal S512x64 .bf16) (w : FVec Ideal S64x2048 .bf16) (r : Fin 512) (e : Fin 2048) :
    matmul (F := Ideal) dot_S512x64_S64x2048_S512x2048_1_0_0_1_n_n none a w (constant S512x2048 .f32 0x00000000#32) (ix2 r e)
      = ∑ d : Fin 64, a (ix2 r d) * w (ix2 d e) := by
  refine (Ideal.matmul_constant_zero_apply dot_S512x64_S64x2048_S512x2048_1_0_0_1_n_n none a w (ix2 r e)).trans ?_
  rw [← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 r e) ((ValueIdx.contrEquiv1 dot_S512x64_S64x2048_S512x2048_1_0_0_1_n_n 64 rfl rfl).symm k) = ix2 r k := funext fun ax => Fin.ext (by
    match ax with
    | ⟨0, _⟩ => exact qk_lhs_0 _ _
    | ⟨1, _⟩ => exact (qk_lhs_1 _ _).trans hk)
  have er : dot_S512x64_S64x2048_S512x2048_1_0_0_1_n_n.rhsIdx (ix2 r e) ((ValueIdx.contrEquiv1 dot_S512x64_S64x2048_S512x2048_1_0_0_1_n_n 64 rfl rfl).symm k) = ix2 k e := funext fun ax => Fin.ext (by
    match ax with
    | ⟨0, _⟩ => exact (qk_rhs_0 _ _).trans hk
    | ⟨1, _⟩ => exact qk_rhs_1 _ _)
  rw [el, er]

/-- The weight block's index at an output index and a contraction index: its row is the output's row. -/
theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- … and its column is the contraction coordinate. -/
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The right operand's row is the contraction coordinate … -/
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- … and its column is the output's column. -/
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weight block against the value block at (r, e): the sum over the 2048 key rows. -/
theorem pv_matmul (a : FVec Ideal S512x2048 .bf16) (w : FVec Ideal S2048x64 .bf16) (r : Fin 512) (e : Fin 64) :
    matmul (F := Ideal) dot_S512x2048_S2048x64_S512x64_1_0_0_1_n_n none a w (constant S512x64 .f32 0x00000000#32) (ix2 r e)
      = ∑ d : Fin 2048, a (ix2 r d) * w (ix2 d e) := by
  refine (Ideal.matmul_constant_zero_apply dot_S512x2048_S2048x64_S512x64_1_0_0_1_n_n none a w (ix2 r e)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r e) ((ValueIdx.contrEquiv1 dot_S512x2048_S2048x64_S512x64_1_0_0_1_n_n 2048 rfl rfl).symm k) = ix2 r k := funext fun ax => Fin.ext (by
    match ax with
    | ⟨0, _⟩ => exact pv_lhs_0 _ _
    | ⟨1, _⟩ => exact (pv_lhs_1 _ _).trans hk)
  have er : dot_S512x2048_S2048x64_S512x64_1_0_0_1_n_n.rhsIdx (ix2 r e) ((ValueIdx.contrEquiv1 dot_S512x2048_S2048x64_S512x64_1_0_0_1_n_n 2048 rfl rfl).symm k) = ix2 k e := funext fun ax => Fin.ext (by
    match ax with
    | ⟨0, _⟩ => exact (pv_rhs_0 _ _).trans hk
    | ⟨1, _⟩ => exact pv_rhs_1 _ _)
  rw [el, er]

/-! ## A column kept by a row reduction, spread back over the row -/

/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and spread over the row reads, at (p, c), the vector at p. -/
theorem keepdims_apply {α : Type} {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-! ## The two row reductions -/

/-- The index a reduced row index r and a lane kk stand for is (r, kk). -/
theorem lift_row (r : Fin 512) (kk : Fin 2048) :
    reduces_S512x2048_S512.lift (ix1 r) kk = ix2 r kk :=
  funext fun ax => Fin.ext (by
    match ax with
    | ⟨0, _⟩ => rfl
    | ⟨1, _⟩ => rfl)

/-- The row maximum at r: the fold of max over the 2048 lanes of row r, from the accumulator's value. -/
theorem rowMax_apply (src : FVec Ideal S512x2048 .f32) (acc : BitVec 32) (hφ : FKind.Formats .f32)
    (hacc : acc = FKind.maximumf.neutral .f32 hφ) (r : Fin 512) :
    multiReduction (F := Ideal) .maximumf [1] S512 src acc reduces_S512x2048_S512 hφ hacc (ix1 r)
      = (Finset.univ : Finset (Fin 2048)).fold max (Ideal.ofBits .f32 acc) (fun kk => src (ix2 r kk)) := by
  refine (Ideal.multiReduction_maximumf_single src acc reduces_S512x2048_S512 hφ hacc (ix1 r)).trans ?_
  show (Finset.univ : Finset (Fin 2048)).fold max (Ideal.ofBits .f32 acc) (fun kk => src (reduces_S512x2048_S512.lift (ix1 r) kk)) = _
  exact congrArg (fun f : Fin 2048 → EReal => (Finset.univ : Finset (Fin 2048)).fold max (Ideal.ofBits .f32 acc) f)
    (funext fun kk => congrArg src (lift_row r kk))

/-- The row sum at r: the sum over the 2048 lanes of row r. -/
theorem rowSum_apply (src : FVec Ideal S512x2048 .f32) (acc : BitVec 32) (hφ : FKind.Formats .f32)
    (hacc : acc = FKind.add.neutral .f32 hφ) (r : Fin 512) :
    multiReduction (F := Ideal) .add [1] S512 src acc reduces_S512x2048_S512 hφ hacc (ix1 r)
      = ∑ kk : Fin 2048, src (ix2 r kk) := by
  refine (Ideal.multiReduction_add_single src acc reduces_S512x2048_S512 hφ hacc (ix1 r)).trans ?_
  show ∑ kk : Fin 2048, src (reduces_S512x2048_S512.lift (ix1 r) kk) = _
  exact Finset.sum_congr rfl fun kk _ => congrArg src (lift_row r kk)

/-! ## The attention body, one stage at a time

The body is cut at four values: the scaled scores, each row's top, the shifted exponentials and the weights. Each stage
is read at an index from the stage before it, over an arbitrary block where it does not matter which block it is. -/

/-- The scaled scores block: the query block against the transposed key block, each product sum times eight. -/
def scoreBlock (q : Vec Ideal S1x512x64 .bf16) (k : Vec Ideal S1x2048x64 .bf16) : FVec Ideal S512x2048 .f32 :=
  mulf
    (matmul (φ₁ := .bf16) (φ₂ := .bf16) dot_S512x64_S64x2048_S512x2048_1_0_0_1_n_n none
      (shapeCast S512x64 q shapeCasts_S1x512x64_S512x64)
      (transpose S64x2048 [1, 0] (shapeCast S2048x64 k shapeCasts_S1x2048x64_S2048x64) transposes_S2048x64_p1_0_S64x2048)
      (constant S512x2048 .f32 0x00000000#32))
    (broadcast S512x2048 (Scalar.ofBits .f32 0x41000000#32))

/-- Each row's top: the row maximum from minus infinity, floored at minus infinity once more. -/
def topCol (s : FVec Ideal S512x2048 .f32) : FVec Ideal S512 .f32 :=
  maximumf (broadcast S512 (Scalar.ofBits .f32 0xFF800000#32))
    (multiReduction .maximumf [1] S512 s 0xFF800000#32 reduces_S512x2048_S512 (.inl rfl) rfl)

/-- The shifted exponentials: each entry minus its row's top, exponentiated. -/
def expBlock (s : FVec Ideal S512x2048 .f32) : FVec Ideal S512x2048 .f32 :=
  exp (subf s (broadcastTo S512x2048 (shapeCast S512x1 (topCol s) shapeCasts_S512_S512x1) broadcasts_S512x1_S512x2048))

/-- The weights: each entry over its row's sum, in the narrower format (the same extended real). -/
def weightBlock (x : FVec Ideal S512x2048 .f32) : FVec Ideal S512x2048 .bf16 :=
  truncf .bf16
    (divf x (broadcastTo S512x2048
      (shapeCast S512x1 (multiReduction .add [1] S512 x 0x00000000#32 reduces_S512x2048_S512 (.inl rfl) rfl) shapeCasts_S512_S512x1)
      broadcasts_S512x1_S512x2048))
    bitsLt_bf16_f32

/-- The attention body's stored block is the weights against the value block, with the leading unit axis put back. -/
theorem k1_pay1_eq (q : Vec Ideal S1x512x64 .bf16) (k v : Vec Ideal S1x2048x64 .bf16) :
    k1_pay1 (F := Ideal) q k v
      = shapeCast S1x512x64
          (matmul (φ₁ := .bf16) (φ₂ := .bf16) dot_S512x2048_S2048x64_S512x64_1_0_0_1_n_n none (weightBlock (expBlock (scoreBlock q k)))
            (shapeCast S2048x64 v shapeCasts_S1x2048x64_S2048x64) (constant S512x64 .f32 0x00000000#32))
          shapeCasts_S512x64_S1x512x64 := rfl

/-- The scores block at (r, kk): the score of query row r against key row kk, with the scale eight. -/
theorem scoreBlock_apply (q : Vec Ideal S1x512x64 .bf16) (k : Vec Ideal S1x2048x64 .bf16) (r : Fin 512) (kk : Fin 2048) :
    scoreBlock q k (ix2 r kk)
      = scores (Ideal.ofBits .f32 0x41000000#32) (fun j : Fin 64 => q (ix3 (0 : Fin 1) r j))
          (fun (kk : Fin 2048) (j : Fin 64) => k (ix3 (0 : Fin 1) kk j)) kk := by
  unfold scoreBlock scores
  refine (mulf_apply _ _ _).trans ?_
  refine congrArg₂ (· * ·) ?_ rfl
  refine (qk_matmul _ _ r kk).trans ?_
  refine Finset.sum_congr rfl fun j _ => ?_
  refine congrArg₂ (· * ·) (shapeCast_1ab_ab_apply q _ r j) ?_
  exact (transpose_ix2_apply _ _ j kk).trans (shapeCast_1ab_ab_apply k _ kk j)

/-- The top of row r of a block is the top of that row's entries. -/
theorem topCol_apply (s : FVec Ideal S512x2048 .f32) (r : Fin 512) :
    topCol s (ix1 r) = top (Ideal.ofBits .f32 0xFF800000#32) (fun kk : Fin 2048 => s (ix2 r kk)) := by
  unfold topCol top
  refine (maximumf_apply _ _ _).trans ?_
  exact congrArg (max (Ideal.ofBits .f32 0xFF800000#32)) (rowMax_apply s _ _ _ r)

/-- The shifted exponential at (r, kk) is that of row r's entries at kk. -/
theorem expBlock_apply (s : FVec Ideal S512x2048 .f32) (r : Fin 512) (kk : Fin 2048) :
    expBlock s (ix2 r kk) = expShift (Ideal.ofBits .f32 0xFF800000#32) (fun kk : Fin 2048 => s (ix2 r kk)) kk := by
  unfold expBlock expShift
  exact congrArg (fun t => Ideal.exp (s (ix2 r kk) - t)) ((keepdims_apply _ _ _ r kk).trans (topCol_apply s r))

/-- The weight at (r, kk): the entry over the sum of row r. -/
theorem weightBlock_apply (x : FVec Ideal S512x2048 .f32) (r : Fin 512) (kk : Fin 2048) :
    weightBlock x (ix2 r kk) = Ideal.div (x (ix2 r kk)) (∑ kk' : Fin 2048, x (ix2 r kk')) := by
  unfold weightBlock
  refine (truncf_apply (φ := .f32) (ψ := .bf16) _ bitsLt_bf16_f32 (ix2 r kk)).trans ?_
  refine (divf_apply _ _ _).trans ?_
  exact congrArg (Ideal.div (x (ix2 r kk))) ((keepdims_apply _ _ _ r kk).trans (rowSum_apply x _ _ _ r))

/-- The attention body's stored value at (0, r, u): one entry of the attention output of query row `r`. -/
theorem attn_payload (q : Vec Ideal S1x512x64 .bf16) (k v : Vec Ideal S1x2048x64 .bf16) (r : Fin 512) (u : Fin 64) :
    k1_pay1 (F := Ideal) q k v (ix3 (0 : Fin 1) r u)
      = attend (Ideal.ofBits .f32 0x41000000#32) (Ideal.ofBits .f32 0xFF800000#32)
          (fun j : Fin 64 => q (ix3 (0 : Fin 1) r j))
          (fun (kk : Fin 2048) (j : Fin 64) => k (ix3 (0 : Fin 1) kk j))
          (fun (kk : Fin 2048) (j : Fin 64) => v (ix3 (0 : Fin 1) kk j)) u := by
  refine (congrFun (k1_pay1_eq q k v) _).trans ?_
  refine (shapeCast_ab_1ab_apply _ _ 0 r u).trans ?_
  refine (pv_matmul _ _ r u).trans ?_
  unfold attend
  refine Finset.sum_congr rfl fun kk _ => ?_
  refine congrArg₂ (· * ·) ?_ (shapeCast_1ab_ab_apply v _ kk u)
  refine (weightBlock_apply _ r kk).trans ?_
  unfold weight
  -- row r of the scores block is the scores of query row r
  have hs : (fun kk : Fin 2048 => scoreBlock q k (ix2 r kk))
      = scores (Ideal.ofBits .f32 0x41000000#32) (fun j : Fin 64 => q (ix3 (0 : Fin 1) r j))
          (fun (kk : Fin 2048) (j : Fin 64) => k (ix3 (0 : Fin 1) kk j)) :=
    funext fun kk => scoreBlock_apply q k r kk
  -- so row r of the shifted exponentials is the shifted exponentials of those scores
  have he : ∀ kk : Fin 2048, expBlock (scoreBlock q k) (ix2 r kk)
      = expShift (Ideal.ofBits .f32 0xFF800000#32)
          (scores (Ideal.ofBits .f32 0x41000000#32) (fun j : Fin 64 => q (ix3 (0 : Fin 1) r j))
            (fun (kk : Fin 2048) (j : Fin 64) => k (ix3 (0 : Fin 1) kk j))) kk :=
    fun kk => (expBlock_apply _ r kk).trans (congrArg (fun f => expShift (Ideal.ofBits .f32 0xFF800000#32) f kk) hs)
  exact congrArg₂ Ideal.div (he kk) (Finset.sum_congr rfl fun k' _ => he k')

end Cert.KernelIdeal.Payloads

end
-- ==== Proof.RefStages.lean ====
/-
  Two stages of the reference, read at one index.

  The projection stage at (b, s, e) is row (b, s) of the input against column `e` of the weights, plus bias entry `e`.
  The attention stage at (b, h, s, u) is the attention output of query row `s` of head (b, h) against all the key and
  value rows of that head, with the scale the square root of sixty-four — which is eight — and the floor minus infinity.
-/
import proofs.«108356_j5652176961587_1_alg».proof.Proof.Gen.ReferenceIdeal.Read
import proofs.«108356_j5652176961587_1_alg».proof.Proof.LibAttention
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Idealize.ShloMosaic Idealize.ShloMosaic.ValueIdx Cert.Attention

/-- The reference's projection stage at (b, s, e). -/
theorem proj_stage (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (s : Fin 2048) (e : Fin 3072) :
    val_main_v3 (F := Ideal) x0 x1 x2 (ix3 b s e)
      = project (fun d : Fin 1024 => x0 (ix3 b s d)) (fun d : Fin 1024 => x1 (ix2 d e)) (x2 (ix1 e)) := by
  rw [val_main_v3_apply, val_main_v0_apply, val_main_v2_apply, val_main_v1_apply]
  -- the row of the input, the column of the weights and the bias entry that the composed index maps pick out
  have e1 : ∀ d : Fin 1024, lidx_main_v0 (ix3 b s e) d = ix3 b s d := fun d =>
    funext fun a => Fin.ext (by match a with | ⟨0, _⟩ => rfl | ⟨1, _⟩ => rfl | ⟨2, _⟩ => rfl)
  have e2 : ∀ d : Fin 1024, ridx_main_v0 (ix3 b s e) d = ix2 d e := fun d =>
    funext fun a => Fin.ext (by match a with | ⟨0, _⟩ => rfl | ⟨1, _⟩ => rfl)
  have e3 : idx_main_v1 (idx_main_v2 (ix3 b s e)) = ix1 e :=
    funext fun a => Fin.ext (by match a with | ⟨0, _⟩ => rfl)
  unfold project
  simp only [e1, e2, e3, Ideal.addf_def]

/-- The scores of query row `s` of head `(b, h)` against every key row, over the reference's own query and key stages,
    scaled by eight. -/
abbrev refScores (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) : Fin 2048 → EReal :=
  scores (Ideal.ofBits .f32 0x41000000#32)
    (fun j : Fin 64 => val_main_v6 (F := Ideal) x0 x1 x2 (ix4 b h s j))
    (fun (kk : Fin 2048) (j : Fin 64) => val_main_v7 (F := Ideal) x0 x1 x2 (ix4 b h kk j))

/-- The scale the reference multiplies the scores by is the square root of sixty-four, which is eight. -/
theorem scale_at (i : S2x16x2048x2048.Idx) : val_main_v11 (F := Ideal) i = Ideal.ofBits .f32 0x41000000#32 := by
  rw [val_main_v11_apply, val_main_v10_apply, val_main_cst_apply, Ideal.hostUnary_sqrt_def, Ideal.ofBits_def, sqrt_64]

/-- The scaled score stage at (b, h, s, k) is score `k` of the row. -/
theorem score_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) (k : Fin 2048) :
    val_main_v12 (F := Ideal) x0 x1 x2 (ix4 b h s k) = refScores x0 x1 x2 b h s k := by
  rw [val_main_v12_apply, val_main_v9_apply, scale_at]
  have el : ∀ j : Fin 64, lidx_main_v9 (ix4 b h s k) j = ix4 b h s j := fun j =>
    funext fun a => Fin.ext (by match a with | ⟨0, _⟩ => rfl | ⟨1, _⟩ => rfl | ⟨2, _⟩ => rfl | ⟨3, _⟩ => rfl)
  have er : ∀ j : Fin 64, ridx_main_v9 (ix4 b h s k) j = ix4 b h k j := fun j =>
    funext fun a => Fin.ext (by match a with | ⟨0, _⟩ => rfl | ⟨1, _⟩ => rfl | ⟨2, _⟩ => rfl | ⟨3, _⟩ => rfl)
  unfold refScores scores
  simp only [el, er, Ideal.mulf_def]

/-- The max-reduce of the scores over the key axis, from minus infinity, at (b, h, s): the fold of `max` over the row. -/
theorem rowmax_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) :
    val_main_v13 (F := Ideal) x0 x1 x2 (ix3 b h s)
      = (Finset.univ : Finset (Fin 2048)).fold max (Ideal.ofBits .f32 0xFF800000#32) (refScores x0 x1 x2 b h s) := by
  have hsc : refScores x0 x1 x2 b h s = fun k : Fin 2048 => val_main_v12 (F := Ideal) x0 x1 x2 (ix4 b h s k) :=
    funext fun k => (score_at x0 x1 x2 b h s k).symm
  rw [hsc]
  unfold val_main_v13
  generalize val_main_v12 (F := Ideal) x0 x1 x2 = y
  have key := Host.reduce_eq_fold_single (FloatOps.maximumf (F := Ideal) (φ := .f32)) y (val_main_cst_0 (F := Ideal))
    Gen.reducesTo_S2x16x2048x2048_S2x16x2048_d3 (by decide) Gen.h_S_ (ix3 b h s)
  refine key.trans ?_
  refine congrArg (fun f => (Finset.univ : Finset (Fin 2048)).fold max (Ideal.ofBits .f32 0xFF800000#32) f) (funext fun k => ?_)
  exact congrArg y (funext fun a => Fin.ext (by match a with | ⟨0, _⟩ => rfl | ⟨1, _⟩ => rfl | ⟨2, _⟩ => rfl | ⟨3, _⟩ => rfl))

/-- The floored row maximum at (b, h, s) is the row's top. -/
theorem top_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) :
    val_main_v15 (F := Ideal) x0 x1 x2 (ix3 b h s) = top (Ideal.ofBits .f32 0xFF800000#32) (refScores x0 x1 x2 b h s) := by
  rw [val_main_v15_apply, val_main_v14_apply, val_main_cst_1_apply, rowmax_at, Ideal.ofBits_def, Ideal.maximumf_def]
  rfl

/-- The shifted exponential stage at (b, h, s, k). -/
theorem exp_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) (k : Fin 2048) :
    val_main_v19 (F := Ideal) x0 x1 x2 (ix4 b h s k)
      = expShift (Ideal.ofBits .f32 0xFF800000#32) (refScores x0 x1 x2 b h s) k := by
  have e17 : idx_main_v16 (idx_main_v17 (ix4 b h s k)) = ix3 b h s :=
    funext fun a => Fin.ext (by match a with | ⟨0, _⟩ => rfl | ⟨1, _⟩ => rfl | ⟨2, _⟩ => rfl)
  rw [val_main_v19_apply, val_main_v18_apply, val_main_v17_apply, val_main_v16_apply, e17, top_at, score_at,
    Ideal.hostUnary_exp_def, Ideal.subf_def]
  rfl

/-- The row sum of the shifted exponentials at (b, h, s). -/
theorem sum_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) :
    val_main_v20 (F := Ideal) x0 x1 x2 (ix3 b h s)
      = ∑ k : Fin 2048, expShift (Ideal.ofBits .f32 0xFF800000#32) (refScores x0 x1 x2 b h s) k := by
  rw [val_main_v20_apply, val_main_cst_2_apply, Ideal.ofBits_def, Ideal.ofBits_zero_f32, zero_add]
  refine Finset.sum_congr rfl fun k _ => ?_
  have e20 : idx_main_v20 (ix3 b h s) k = ix4 b h s k :=
    funext fun a => Fin.ext (by match a with | ⟨0, _⟩ => rfl | ⟨1, _⟩ => rfl | ⟨2, _⟩ => rfl | ⟨3, _⟩ => rfl)
  rw [e20, exp_at]

/-- The softmax weight stage at (b, h, s, k). -/
theorem weight_at (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) (k : Fin 2048) :
    val_main_v23 (F := Ideal) x0 x1 x2 (ix4 b h s k)
      = weight (Ideal.ofBits .f32 0xFF800000#32) (refScores x0 x1 x2 b h s) k := by
  have e22 : idx_main_v21 (idx_main_v22 (ix4 b h s k)) = ix3 b h s :=
    funext fun a => Fin.ext (by match a with | ⟨0, _⟩ => rfl | ⟨1, _⟩ => rfl | ⟨2, _⟩ => rfl)
  rw [val_main_v23_apply, val_main_v22_apply, val_main_v21_apply, e22, sum_at, exp_at, Ideal.hostDivf_def]
  rfl

/-- The reference's attention stage at (b, h, s, u), over its own query, key and value stages. -/
theorem attn_stage (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (b : Fin 2) (h : Fin 16) (s : Fin 2048) (u : Fin 64) :
    val_main_v24 (F := Ideal) x0 x1 x2 (ix4 b h s u)
      = attend (Ideal.ofBits .f32 0x41000000#32) (Ideal.ofBits .f32 0xFF800000#32)
          (fun j : Fin 64 => val_main_v6 (F := Ideal) x0 x1 x2 (ix4 b h s j))
          (fun (kk : Fin 2048) (j : Fin 64) => val_main_v7 (F := Ideal) x0 x1 x2 (ix4 b h kk j))
          (fun (kk : Fin 2048) (j : Fin 64) => val_main_v8 (F := Ideal) x0 x1 x2 (ix4 b h kk j)) u := by
  rw [val_main_v24_apply]
  unfold attend
  refine Finset.sum_congr rfl fun k _ => ?_
  have el : lidx_main_v24 (ix4 b h s u) k = ix4 b h s k :=
    funext fun a => Fin.ext (by match a with | ⟨0, _⟩ => rfl | ⟨1, _⟩ => rfl | ⟨2, _⟩ => rfl | ⟨3, _⟩ => rfl)
  have er : ridx_main_v24 (ix4 b h s u) k = ix4 b h k u :=
    funext fun a => Fin.ext (by match a with | ⟨0, _⟩ => rfl | ⟨1, _⟩ => rfl | ⟨2, _⟩ => rfl | ⟨3, _⟩ => rfl)
  rw [el, er, weight_at]

end Cert.ReferenceIdeal.Stages

end
-- ==== Proof.Stretches.lean ====
/-
  What the three stretches of host operations leave, buffer by buffer, from any contents `X` they start from.

  Before the first region: the input is reshaped to 4096 rows and narrowed; the weights are narrowed; the bias is
  not touched. (At the extended reals narrowing is the identity.)
  Between the regions: the projection is viewed as [batch, row, head, 192], heads and rows are swapped, the last
  axis is cut into the query, key and value thirds, and batch and head are merged into one axis of 32.
  After the second region: batch and head are split again, heads and rows swapped back, and head and column merged.
-/
import proofs.«108356_j5652176961587_1_alg».proof.Proof.Gen.KernelIdeal.Frame
import Idealize.ShloMosaic.Lib.StableHlo.Run
import Idealize.ShloMosaic.PureOps.Ideal

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable (X : Valuation τ sig (Elt Ideal))

/-- The query third of the projection, heads before rows, batch and head merged: a function of the projection array. -/
def third (off : Fin 4 → Nat) (h : S2x16x2048x192.Slices off S2x16x2048x64) (P : S4096x3072.Idx → EReal) : S32x2048x64.Idx → EReal :=
  shapeCast S32x2048x64
    (extractStridedSlice S2x16x2048x64 off
      (transpose S2x16x2048x192 [0, 2, 1, 3] (shapeCast S2x2048x16x192 P shapeCasts_S4096x3072_S2x2048x16x192)
        transposes_S2x2048x16x192_S2x16x2048x192_0_2_1_3) h)
    shapeCasts_S2x16x2048x64_S32x2048x64

/-- The result laid out as the program returns it: a function of the attention array. -/
def laidOut (O : S32x2048x64.Idx → EReal) : S2x2048x1024.Idx → EReal :=
  shapeCast S2x2048x1024
    (transpose S2x2048x16x64 [0, 2, 1, 3] (shapeCast S2x16x2048x64 O shapeCasts_S32x2048x64_S2x16x2048x64)
      transposes_S2x16x2048x64_S2x2048x16x64_0_2_1_3)
    shapeCasts_S2x2048x16x64_S2x2048x1024

/-- Before the first region the first operand is the input viewed as 4096 rows. -/
theorem first_v1 : StableHlo.after (hostOps0 (F := Ideal)) X (Proc.devRef .tc main_v1)
    = shapeCast S4096x1024 (X (Proc.devRef .tc main_arg0)) shapeCasts_S2x2048x1024_S4096x1024 := by
  after_results; rfl

/-- Before the first region the second operand is the weights. -/
theorem first_v2 : StableHlo.after (hostOps0 (F := Ideal)) X (Proc.devRef .tc main_v2) = X (Proc.devRef .tc main_arg1) := by
  after_results; rfl

/-- The first stretch does not touch the bias. -/
theorem first_arg2 : StableHlo.after (hostOps0 (F := Ideal)) X (Proc.devRef .tc main_arg2) = X (Proc.devRef .tc main_arg2) := by
  after_results

/-- Between the regions the queries are the first third of the projection array. -/
theorem mid_v9 : StableHlo.after (hostOps1 (F := Ideal)) X (Proc.devRef .tc main_v9)
    = third ![0, 0, 0, 0] slices_S2x16x2048x192_S2x16x2048x64_0_0_0_0 (X (Proc.devRef .tc main_v3)) := by
  after_results; rfl

/-- Between the regions the keys are the second third of the projection array. -/
theorem mid_v10 : StableHlo.after (hostOps1 (F := Ideal)) X (Proc.devRef .tc main_v10)
    = third ![0, 0, 0, 64] slices_S2x16x2048x192_S2x16x2048x64_0_0_0_64 (X (Proc.devRef .tc main_v3)) := by
  after_results; rfl

/-- Between the regions the values are the last third of the projection array. -/
theorem mid_v11 : StableHlo.after (hostOps1 (F := Ideal)) X (Proc.devRef .tc main_v11)
    = third ![0, 0, 0, 128] slices_S2x16x2048x192_S2x16x2048x64_0_0_0_128 (X (Proc.devRef .tc main_v3)) := by
  after_results; rfl

/-- After the second region the result is the attention array laid out as the program returns it. -/
theorem last_v15 : StableHlo.after (hostOps2 (F := Ideal)) X (Proc.devRef .tc main_v15)
    = laidOut (X (Proc.devRef .tc main_v12)) := by
  after_results; rfl

end Cert.KernelIdeal.Stretches

end
-- ==== Proof.Projection.lean ====
/-
  The first region's output array is the reference's projection stage, viewed as 4096 rows.

  Grid point `t` (of eight) stores rows 512·t … 512·t + 511 of the array. Entry (r, e) of that block is row r of
  the point's block of the input against column e of the weights plus bias entry e; row r of the point's input block
  is row 512·t + r of the input viewed as 4096 rows, that is row (512·t + r) mod 2048 of batch (512·t + r) / 2048.
  The reference's projection stage at (b, s, e) is the same sum. The eight blocks tile the array.
-/
import proofs.«108356_j5652176961587_1_alg».proof.Proof.Gen.KernelIdeal.Frame
import proofs.«108356_j5652176961587_1_alg».proof.Proof.Gen.ReferenceIdeal.Read
import proofs.«108356_j5652176961587_1_alg».proof.Proof.Payloads
import proofs.«108356_j5652176961587_1_alg».proof.Proof.RefStages
import proofs.«108356_j5652176961587_1_alg».proof.Proof.Stretches
import Idealize.ShloMosaic.Lib.Pipeline.Value
import Idealize.ShloMosaic.Lib.ValueIdx

set_option maxRecDepth 16384

noncomputable section

namespace Cert.KernelIdeal.Projection

open Idealize.ShloMosaic Idealize.ShloMosaic.TcCoe Idealize.SL.Sem Idealize.ShloMosaic.ValueIdx
open Cert.KernelIdeal Cert.KernelIdeal.Gen Cert.Attention

/-! ## The array, as a function of the three arguments -/

section Pure

variable (x0 : S2x2048x1024.Idx → EReal) (x1 : S1024x3072.Idx → EReal) (x2 : S3072.Idx → EReal)

/-- The reference's projection stage viewed as 4096 rows of 3072. -/
def projArr : S4096x3072.Idx → EReal :=
  shapeCast S4096x3072 (Cert.ReferenceIdeal.Read.val_main_v3 (F := Ideal) x0 x1 x2) (by decide)

/-- Row `R` of the 4096 is row `R mod 2048` of batch `R / 2048`. -/
theorem rows_apply (R : Fin 4096) (d : Fin 1024) :
    shapeCast S4096x1024 x0 shapeCasts_S2x2048x1024_S4096x1024 (ix2 R d)
      = x0 (ix3 (⟨R.val / 2048, by have := R.isLt; omega⟩ : Fin 2) (⟨R.val % 2048, by omega⟩ : Fin 2048) d) := by
  refine shapeCast_apply _ _ _ _ ?_
  rw [Shape.rowMajor_val_three, Shape.rowMajor_val_two]
  show (R.val / 2048 * 2048 + R.val % 2048) * 1024 + d.val = R.val * 1024 + d.val
  omega

/-- Entry (R, e) of the array: row `R` of the input against column `e` of the weights, plus the bias. -/
theorem projArr_apply (R : Fin 4096) (e : Fin 3072) :
    projArr x0 x1 x2 (ix2 R e)
      = project (fun d : Fin 1024 => x0 (ix3 (⟨R.val / 2048, by have := R.isLt; omega⟩ : Fin 2) (⟨R.val % 2048, by omega⟩ : Fin 2048) d))
          (fun d : Fin 1024 => x1 (ix2 d e)) (x2 (ix1 e)) := by
  unfold projArr
  refine (shapeCast_apply _ _ (ix2 R e)
    (ix3 (⟨R.val / 2048, by have := R.isLt; omega⟩ : Fin 2) (⟨R.val % 2048, by omega⟩ : Fin 2048) e) ?_).trans ?_
  · rw [Shape.rowMajor_val_three, Shape.rowMajor_val_two]
    show (R.val / 2048 * 2048 + R.val % 2048) * 3072 + e.val = R.val * 3072 + e.val
    omega
  · exact Cert.ReferenceIdeal.Stages.proj_stage x0 x1 x2 _ _ e

/-- An entry of the block of point `T`: if the three operand blocks are the point's rows of the input, the weights and
    the bias, what the body stores at `j` is the array at row 512·T + (j 0), column (j 1). -/
theorem block_entry (A : Vec Ideal S512x1024 .bf16) (Wt : Vec Ideal S1024x3072 .bf16) (Bs : Vec Ideal S3072 .f32)
    (T : ℕ) (hT : T < 8)
    (hA : ∀ (r : Fin 512) (d : Fin 1024), A (ix2 r d)
      = shapeCast S4096x1024 x0 shapeCasts_S2x2048x1024_S4096x1024 (ix2 (⟨T * 512 + r.val, by have := r.isLt; omega⟩ : Fin 4096) d))
    (hW : ∀ (d : Fin 1024) (e : Fin 3072), Wt (ix2 d e) = x1 (ix2 d e))
    (hB : ∀ e : Fin 3072, Bs (ix1 e) = x2 (ix1 e))
    (j : S512x3072.Idx) :
    k0_pay1 (F := Ideal) A Wt Bs j
      = projArr x0 x1 x2 (ix2 (⟨T * 512 + (j 0).val, by have h : (j 0).val < 512 := (j 0).isLt; omega⟩ : Fin 4096) (j 1)) := by
  obtain ⟨r, e, rfl⟩ : ∃ (r : Fin 512) (e : Fin 3072), j = ix2 r e := ⟨j 0, j 1, eq_ix2 j⟩
  rw [Cert.KernelIdeal.Payloads.proj_payload]
  refine Eq.trans ?_ (projArr_apply x0 x1 x2 _ _).symm
  rw [show (fun d : Fin 1024 => A (ix2 r d)) = _ from funext fun d => (hA r d).trans (rows_apply x0 _ d),
    show (fun d : Fin 1024 => Wt (ix2 d e)) = fun d : Fin 1024 => x1 (ix2 d e) from funext fun d => hW d e, hB e]

end Pure

/-! ## From the eight blocks to the array -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the eight points: the input and output blocks move with the point along the rows,
    the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The argument arrays as launched. -/
abbrev arg0 (c : Dev nD) : S2x2048x1024.Idx → EReal := m ((c : Thread nD τ).loc main_arg0)
abbrev arg1 (c : Dev nD) : S1024x3072.Idx → EReal := m ((c : Thread nD τ).loc main_arg1)
abbrev arg2 (c : Dev nD) : S3072.Idx → EReal := m ((c : Thread nD τ).loc main_arg2)

/-- What the region finds at its three operands. -/
theorem entry_v1 (c : Dev nD) : (V1 m ρ c main_v1 : S4096x1024.Idx → EReal)
    = shapeCast S4096x1024 (arg0 m c) shapeCasts_S2x2048x1024_S4096x1024 :=
  Cert.KernelIdeal.Stretches.first_v1 (W0 m ρ c)
theorem entry_v2 (c : Dev nD) : (V1 m ρ c main_v2 : S1024x3072.Idx → EReal) = arg1 m c :=
  Cert.KernelIdeal.Stretches.first_v2 (W0 m ρ c)
theorem entry_arg2 (c : Dev nD) : (V1 m ρ c main_arg2 : S3072.Idx → EReal) = arg2 m c :=
  Cert.KernelIdeal.Stretches.first_arg2 (W0 m ρ c)

/-- WHAT POINT `t` WRITES BACK is block `t` of the array. -/
theorem flushed_eq (c : Dev nD) (t : Fin cfg0.N) :
    (dat0 (V1 m ρ) c).flushed 3 t
      = ((cfg0.win 3).blk t).view.read (Elt Ideal) (projArr (arg0 m c) (arg1 m c) (arg2 m c)) := by
  show (cfg0.win 3).cut (grid0.coords t) ((dat0 (V1 m ρ) c).after 3 t) = _
  rw [after0_3]
  unfold out0_3
  rw [View.canon_unit_zero hz2]
  simp only [View.ld_unit_zero (S := S512x1024) hz2, View.ld_unit_zero (S := S1024x3072) hz2, View.ld_unit_zero (S := S3072) hz1]
  obtain ⟨e0, e1, e2, e3, e4, e5, e6⟩ := idx_facts t
  have ht : t.val < 8 := by have := t.isLt; have hN : cfg0.N = 8 := N_0; omega
  funext j
  refine (block_entry (arg0 m c) (arg1 m c) (arg2 m c) _ _ _ t.val ht ?_ ?_ ?_ j).trans ?_
  · intro r d
    show V1 m ρ c main_v1 (((cfg0.win 0).blk t).view.emb (ix2 r d)) = _
    rw [entry_v1]
    refine congrArg _ (funext fun a => Fin.ext ?_)
    match a with
    | ⟨0, _⟩ => show win0_0.index t (0 : Fin 2) * 512 + 1 * r.val = t.val * 512 + r.val; omega
    | ⟨1, _⟩ => show win0_0.index t (1 : Fin 2) * 1024 + 1 * d.val = d.val; omega
  · intro d e
    show V1 m ρ c main_v2 (((cfg0.win 1).blk t).view.emb (ix2 d e)) = _
    rw [entry_v2]
    refine congrArg _ (funext fun a => Fin.ext ?_)
    match a with
    | ⟨0, _⟩ => show win0_1.index t (0 : Fin 2) * 1024 + 1 * d.val = d.val; omega
    | ⟨1, _⟩ => show win0_1.index t (1 : Fin 2) * 3072 + 1 * e.val = e.val; omega
  · intro e
    show V1 m ρ c main_arg2 (((cfg0.win 2).blk t).view.emb (ix1 e)) = _
    rw [entry_arg2]
    refine congrArg _ (funext fun a => Fin.ext ?_)
    match a with
    | ⟨0, _⟩ => show win0_2.index t (0 : Fin 1) * 3072 + 1 * e.val = e.val; omega
  · show projArr _ _ _ _ = projArr _ _ _ (((cfg0.win 3).blk t).view.emb j)
    refine congrArg _ (funext fun a => Fin.ext ?_)
    match a with
    | ⟨0, _⟩ => show t.val * 512 + (j 0).val = win0_3.index t (0 : Fin 2) * 512 + 1 * (j 0).val; omega
    | ⟨1, _⟩ => show (j 1).val = win0_3.index t (1 : Fin 2) * 3072 + 1 * (j 1).val; omega

/-- An index of the array is in point `t`'s block iff each coordinate is in the block's range on its axis. -/
theorem mem_blk (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- The eight blocks tile the array: row `R` lies in the block of point `R / 512`. -/
theorem cover (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  refine ⟨⟨(i 0).val / 512, by omega⟩, flush0_3 _, ?_⟩
  rw [mem_blk]
  obtain ⟨e0, e1, e2, e3, e4, e5, e6⟩ := idx_facts ⟨(i 0).val / 512, by omega⟩
  intro a
  match a with
  | ⟨0, _⟩ =>
    show win0_3.index _ (0 : Fin 2) * 512 ≤ (i 0).val ∧ (i 0).val < win0_3.index _ (0 : Fin 2) * 512 + 512
    rw [e5]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [e6]; omega

/-- THE ARRAY after the first region: the reference's projection stage, viewed as 4096 rows. -/
theorem final (c : Dev nD) :
    (dat0 (V1 m ρ) c).arrAt 3 cfg0.N = projArr (arg0 m c) (arg1 m c) (arg2 m c) :=
  (dat0 (V1 m ρ) c).arrAt_eq_of_cover 3 _ (fun t _ => flushed_eq m ρ c t) cover

end Cert.KernelIdeal.Projection

end
-- ==== Proof.LibShapeCastTrans.lean ====
/-
  Reshaping an array twice is reshaping it once.

  A reshape keeps every element's row-major position, so going from shape `s` to `t` and then from `t` to `u`
  reads each element of `u` at the element of `s` with the same position: the reshape from `s` to `u`.
  (The library has the there-and-back case; this is the law for three different shapes.)
-/
import Idealize.ShloMosaic.Lib.Pipeline.Value

namespace Cert.ShapeCastTrans

open Idealize.ShloMosaic

/-- A reshape of a reshape is the reshape straight to the last shape: both read the element of the source that has
    the same row-major position as the index asked for. -/
theorem shapeCast_trans {s t u : Shape} {α : Type} (v : s.Idx → α) (h : s.ShapeCasts t) (h' : t.ShapeCasts u)
    (h'' : s.ShapeCasts u) :
    shapeCast u (shapeCast t v h) h' = shapeCast u v h'' :=
  funext fun i => congrArg v (Shape.reshapeEquiv_reshapeEquiv h h' i)

end Cert.ShapeCastTrans
-- ==== Proof.Attention.lean ====
/-
  The second region's output array is the reference's attention stage, with batch and head merged into one axis of 32.

  The second region runs on a grid of 32 × 4 points: point (g, p) handles head g (batch g / 16, head g mod 16) and query
  rows 512·p … 512·p + 511. It reads those query rows and ALL the key and value rows of the head, and stores, at row r
  and column u of its block, the attention output of query row 512·p + r. What it finds at its three operands is the
  query, key and value thirds of the first region's array, which are the reference's query, key and value stages with
  batch and head merged; the reference's attention stage at (b, h, s, u) is the same function of those. The 128 blocks
  tile the array.
-/
import proofs.«108356_j5652176961587_1_alg».proof.Proof.Projection
import proofs.«108356_j5652176961587_1_alg».proof.Proof.LibShapeCastTrans

set_option maxRecDepth 16384

noncomputable section

namespace Cert.KernelIdeal.Attention

open Idealize.ShloMosaic Idealize.ShloMosaic.TcCoe Idealize.SL.Sem Idealize.ShloMosaic.ValueIdx
open Cert.KernelIdeal Cert.KernelIdeal.Gen Cert.Attention Cert.KernelIdeal.Stretches Cert.KernelIdeal.Projection

/-! ## The arrays, as functions of the three arguments -/

section Pure

variable (x0 : S2x2048x1024.Idx → EReal) (x1 : S1024x3072.Idx → EReal) (x2 : S3072.Idx → EReal)

/-- The reference's query, key, value and attention stages with batch and head merged. -/
def qArr : S32x2048x64.Idx → EReal :=
  shapeCast S32x2048x64 (Cert.ReferenceIdeal.Read.val_main_v6 (F := Ideal) x0 x1 x2) shapeCasts_S2x16x2048x64_S32x2048x64
def kArr : S32x2048x64.Idx → EReal :=
  shapeCast S32x2048x64 (Cert.ReferenceIdeal.Read.val_main_v7 (F := Ideal) x0 x1 x2) shapeCasts_S2x16x2048x64_S32x2048x64
def vArr : S32x2048x64.Idx → EReal :=
  shapeCast S32x2048x64 (Cert.ReferenceIdeal.Read.val_main_v8 (F := Ideal) x0 x1 x2) shapeCasts_S2x16x2048x64_S32x2048x64
def attnArr : S32x2048x64.Idx → EReal :=
  shapeCast S32x2048x64 (Cert.ReferenceIdeal.Read.val_main_v24 (F := Ideal) x0 x1 x2) shapeCasts_S2x16x2048x64_S32x2048x64

/-- The thirds of the first region's array ARE the reference's query, key and value stages, batch and head merged:
    viewing the projection stage as 4096 rows and then as [2, 2048, 16, 192] is viewing it as [2, 2048, 16, 192]. -/
theorem third_q : third ![0, 0, 0, 0] slices_S2x16x2048x192_S2x16x2048x64_0_0_0_0 (projArr x0 x1 x2) = qArr x0 x1 x2 := by
  unfold third projArr qArr
  rw [Cert.ShapeCastTrans.shapeCast_trans _ _ _ (by decide)]
  rfl
theorem third_k : third ![0, 0, 0, 64] slices_S2x16x2048x192_S2x16x2048x64_0_0_0_64 (projArr x0 x1 x2) = kArr x0 x1 x2 := by
  unfold third projArr kArr
  rw [Cert.ShapeCastTrans.shapeCast_trans _ _ _ (by decide)]
  rfl
theorem third_v : third ![0, 0, 0, 128] slices_S2x16x2048x192_S2x16x2048x64_0_0_0_128 (projArr x0 x1 x2) = vArr x0 x1 x2 := by
  unfold third projArr vArr
  rw [Cert.ShapeCastTrans.shapeCast_trans _ _ _ (by decide)]
  rfl

/-- The attention array laid out as the program returns it IS the reference's result: splitting the merged axis
    again undoes the merge. -/
theorem laidOut_attn : laidOut (attnArr x0 x1 x2) = Cert.ReferenceIdeal.Read.val_main_v26 (F := Ideal) x0 x1 x2 := by
  unfold laidOut attnArr
  rw [shapeCast_shapeCast]
  rfl

/-- Merged index `g` is head `g mod 16` of batch `g / 16`. -/
theorem head_apply (Z : S2x16x2048x64.Idx → EReal) (g : Fin 32) (s : Fin 2048) (j : Fin 64) :
    shapeCast S32x2048x64 Z shapeCasts_S2x16x2048x64_S32x2048x64 (ix3 g s j)
      = Z (ix4 (⟨g.val / 16, by have := g.isLt; omega⟩ : Fin 2) (⟨g.val % 16, by omega⟩ : Fin 16) s j) := by
  refine shapeCast_apply _ _ _ _ ?_
  rw [Shape.rowMajor_val_four, Shape.rowMajor_val_three]
  show ((g.val / 16 * 16 + g.val % 16) * 2048 + s.val) * 64 + j.val = (g.val * 2048 + s.val) * 64 + j.val
  omega

/-- Entry (g, s, u) of the attention array: the attention output of query row `s` of head `g`. -/
theorem attnArr_apply (g : Fin 32) (s : Fin 2048) (u : Fin 64) :
    attnArr x0 x1 x2 (ix3 g s u)
      = attend (Ideal.ofBits .f32 0x41000000#32) (Ideal.ofBits .f32 0xFF800000#32)
          (fun j : Fin 64 => qArr x0 x1 x2 (ix3 g s j))
          (fun (kk : Fin 2048) (j : Fin 64) => kArr x0 x1 x2 (ix3 g kk j))
          (fun (kk : Fin 2048) (j : Fin 64) => vArr x0 x1 x2 (ix3 g kk j)) u := by
  unfold attnArr qArr kArr vArr
  rw [head_apply, Cert.ReferenceIdeal.Stages.attn_stage]
  simp only [head_apply]

/-- An entry of the block of point (G, P): if the three operand blocks are the point's query rows and the head's key
    and value rows, what the body stores at `y` is the array at head G, row 512·P + (y 1), column (y 2). -/
theorem block_entry (Q : Vec Ideal S1x512x64 .bf16) (Kb Vb : Vec Ideal S1x2048x64 .bf16)
    (G : ℕ) (hG : G < 32) (P : ℕ) (hP : P < 4)
    (hQ : ∀ (r : Fin 512) (j : Fin 64), Q (ix3 (0 : Fin 1) r j)
      = qArr x0 x1 x2 (ix3 (⟨G, hG⟩ : Fin 32) (⟨P * 512 + r.val, by have := r.isLt; omega⟩ : Fin 2048) j))
    (hK : ∀ (kk : Fin 2048) (j : Fin 64), Kb (ix3 (0 : Fin 1) kk j) = kArr x0 x1 x2 (ix3 (⟨G, hG⟩ : Fin 32) kk j))
    (hV : ∀ (kk : Fin 2048) (j : Fin 64), Vb (ix3 (0 : Fin 1) kk j) = vArr x0 x1 x2 (ix3 (⟨G, hG⟩ : Fin 32) kk j))
    (y : S1x512x64.Idx) :
    k1_pay1 (F := Ideal) Q Kb Vb y
      = attnArr x0 x1 x2 (ix3 (⟨G, hG⟩ : Fin 32) (⟨P * 512 + (y 1).val, by have h : (y 1).val < 512 := (y 1).isLt; omega⟩ : Fin 2048) (y 2)) := by
  obtain ⟨z, r, u, rfl⟩ : ∃ (z : Fin 1) (r : Fin 512) (u : Fin 64), y = ix3 z r u := ⟨y 0, y 1, y 2, eq_ix3 y⟩
  obtain rfl : z = 0 := Subsingleton.elim _ _
  rw [Cert.KernelIdeal.Payloads.attn_payload]
  refine Eq.trans ?_ (attnArr_apply x0 x1 x2 _ _ _).symm
  rw [show (fun j : Fin 64 => Q (ix3 (0 : Fin 1) r j)) = _ from funext fun j => hQ r j,
    show (fun (kk : Fin 2048) (j : Fin 64) => Kb (ix3 (0 : Fin 1) kk j)) = _ from funext fun kk => funext fun j => hK kk j,
    show (fun (kk : Fin 2048) (j : Fin 64) => Vb (ix3 (0 : Fin 1) kk j)) = _ from funext fun kk => funext fun j => hV kk j]

end Pure

/-! ## From the 128 blocks to the array -/

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the 128 points: point `t` is head `t / 4`, query tile `t mod 4`; the key and value
    blocks are the whole head. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The first region's array, as the second stretch finds it. -/
theorem found_v3 (c : Dev nD) : (W2 m ρ c (Proc.devRef .tc main_v3) : S4096x3072.Idx → EReal)
    = projArr (arg0 m c) (arg1 m c) (arg2 m c) :=
  (W2_arr m ρ c 3).trans (Projection.final m ρ c)

/-- What the second region finds at its three operands. -/
theorem entry_v9 (c : Dev nD) : (V3 m ρ c main_v9 : S32x2048x64.Idx → EReal) = qArr (arg0 m c) (arg1 m c) (arg2 m c) := by
  refine (mid_v9 (W2 m ρ c)).trans ?_
  rw [found_v3]; exact third_q _ _ _
theorem entry_v10 (c : Dev nD) : (V3 m ρ c main_v10 : S32x2048x64.Idx → EReal) = kArr (arg0 m c) (arg1 m c) (arg2 m c) := by
  refine (mid_v10 (W2 m ρ c)).trans ?_
  rw [found_v3]; exact third_k _ _ _
theorem entry_v11 (c : Dev nD) : (V3 m ρ c main_v11 : S32x2048x64.Idx → EReal) = vArr (arg0 m c) (arg1 m c) (arg2 m c) := by
  refine (mid_v11 (W2 m ρ c)).trans ?_
  rw [found_v3]; exact third_v _ _ _

/-- WHAT POINT `t` WRITES BACK is block `t` of the attention array. -/
theorem flushed_eq (c : Dev nD) (t : Fin cfg1.N) :
    (dat1 (V3 m ρ) c).flushed 3 t
      = ((cfg1.win 3).blk t).view.read (Elt Ideal) (attnArr (arg0 m c) (arg1 m c) (arg2 m c)) := by
  show (cfg1.win 3).cut (grid1.coords t) ((dat1 (V3 m ρ) c).after 3 t) = _
  rw [after1_3]
  unfold out1_3
  rw [View.canon_unit_zero hz3]
  simp only [View.ld_unit_zero (S := S1x512x64) hz3, View.ld_unit_zero (S := S1x2048x64) hz3]
  obtain ⟨q0, q1, q2, k0, k1, k2, v0, v1, v2, o0, o1, o2⟩ := idx_facts t
  have ht : t.val < 128 := by have := t.isLt; have hN : cfg1.N = 128 := N_1; omega
  funext y
  refine (block_entry (arg0 m c) (arg1 m c) (arg2 m c) _ _ _ (t.val / 4) (by omega) (t.val % 4) (by omega) ?_ ?_ ?_ y).trans ?_
  · intro r j
    show V3 m ρ c main_v9 (((cfg1.win 0).blk t).view.emb (ix3 (0 : Fin 1) r j)) = _
    rw [entry_v9]
    refine congrArg _ (funext fun a => Fin.ext ?_)
    match a with
    | ⟨0, _⟩ => show win1_0.index t (0 : Fin 3) * 1 + 1 * 0 = t.val / 4; omega
    | ⟨1, _⟩ => show win1_0.index t (1 : Fin 3) * 512 + 1 * r.val = t.val % 4 * 512 + r.val; omega
    | ⟨2, _⟩ => show win1_0.index t (2 : Fin 3) * 64 + 1 * j.val = j.val; omega
  · intro kk j
    show V3 m ρ c main_v10 (((cfg1.win 1).blk t).view.emb (ix3 (0 : Fin 1) kk j)) = _
    rw [entry_v10]
    refine congrArg _ (funext fun a => Fin.ext ?_)
    match a with
    | ⟨0, _⟩ => show win1_1.index t (0 : Fin 3) * 1 + 1 * 0 = t.val / 4; omega
    | ⟨1, _⟩ => show win1_1.index t (1 : Fin 3) * 2048 + 1 * kk.val = kk.val; omega
    | ⟨2, _⟩ => show win1_1.index t (2 : Fin 3) * 64 + 1 * j.val = j.val; omega
  · intro kk j
    show V3 m ρ c main_v11 (((cfg1.win 2).blk t).view.emb (ix3 (0 : Fin 1) kk j)) = _
    rw [entry_v11]
    refine congrArg _ (funext fun a => Fin.ext ?_)
    match a with
    | ⟨0, _⟩ => show win1_2.index t (0 : Fin 3) * 1 + 1 * 0 = t.val / 4; omega
    | ⟨1, _⟩ => show win1_2.index t (1 : Fin 3) * 2048 + 1 * kk.val = kk.val; omega
    | ⟨2, _⟩ => show win1_2.index t (2 : Fin 3) * 64 + 1 * j.val = j.val; omega
  · show attnArr _ _ _ _ = attnArr _ _ _ (((cfg1.win 3).blk t).view.emb y)
    refine congrArg _ (funext fun a => Fin.ext ?_)
    have hy0 : (y 0).val < 1 := (y 0).isLt
    match a with
    | ⟨0, _⟩ => show t.val / 4 = win1_3.index t (0 : Fin 3) * 1 + 1 * (y 0).val; omega
    | ⟨1, _⟩ => show t.val % 4 * 512 + (y 1).val = win1_3.index t (1 : Fin 3) * 512 + 1 * (y 1).val; omega
    | ⟨2, _⟩ => show (y 2).val = win1_3.index t (2 : Fin 3) * 64 + 1 * (y 2).val; omega

/-- An index of the array is in point `t`'s block iff each coordinate is in the block's range on its axis. -/
theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v12).slice (win1_3.rect t)).set ↔ _
  rw [View.set_slice_whole, Rect.mem_set_unit]
  exact Iff.rfl

/-- The 128 blocks tile the array: head `g`, row `s` lies in the block of point `4·g + s / 512`. -/
theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 128 := N_1
  refine ⟨⟨(i 0).val * 4 + (i 1).val / 512, by omega⟩, flush1_3 _, ?_⟩
  rw [mem_blk]
  obtain ⟨q0, q1, q2, k0, k1, k2, v0, v1, v2, o0, o1, o2⟩ := idx_facts ⟨(i 0).val * 4 + (i 1).val / 512, by omega⟩
  intro a
  match a with
  | ⟨0, _⟩ =>
    show win1_3.index _ (0 : Fin 3) * 1 ≤ (i 0).val ∧ (i 0).val < win1_3.index _ (0 : Fin 3) * 1 + 1
    rw [o0]; show ((i 0).val * 4 + (i 1).val / 512) / 4 * 1 ≤ (i 0).val ∧ (i 0).val < ((i 0).val * 4 + (i 1).val / 512) / 4 * 1 + 1; omega
  | ⟨1, _⟩ =>
    show win1_3.index _ (1 : Fin 3) * 512 ≤ (i 1).val ∧ (i 1).val < win1_3.index _ (1 : Fin 3) * 512 + 512
    rw [o1]; show ((i 0).val * 4 + (i 1).val / 512) % 4 * 512 ≤ (i 1).val ∧ (i 1).val < ((i 0).val * 4 + (i 1).val / 512) % 4 * 512 + 512; omega
  | ⟨2, _⟩ =>
    show win1_3.index _ (2 : Fin 3) * 64 ≤ (i 2).val ∧ (i 2).val < win1_3.index _ (2 : Fin 3) * 64 + 64
    rw [o2]; omega

/-- THE ARRAY after the second region: the reference's attention stage, batch and head merged. -/
theorem final (c : Dev nD) :
    (dat1 (V3 m ρ) c).arrAt 3 cfg1.N = attnArr (arg0 m c) (arg1 m c) (arg2 m c) :=
  (dat1 (V3 m ρ) c).arrAt_eq_of_cover 3 _ (fun t _ => flushed_eq m ρ c t) cover

/-- THE RESULT BUFFER at the last boundary: the reference's result, as a function of the three arguments. -/
theorem result (c : Dev nD) : (W5 m ρ c (Proc.devRef .tc main_v15) : S2x2048x1024.Idx → EReal)
    = Cert.ReferenceIdeal.Read.val_main_v26 (F := Ideal) (arg0 m c) (arg1 m c) (arg2 m c) := by
  refine (last_v15 (W4 m ρ c)).trans ?_
  rw [show (W4 m ρ c (Proc.devRef .tc main_v12) : S32x2048x64.Idx → EReal) = attnArr (arg0 m c) (arg1 m c) (arg2 m c)
    from (W4_arr m ρ c 3).trans (final m ρ c)]
  exact laidOut_attn _ _ _

end Cert.KernelIdeal.Attention

end
-- ==== Proof.lean ====
/-
  The idealized kernel and the idealized reference compute one function of the three arguments.

  The kernel is two regions among three stretches of host operations. The first region is the fused query-key-value
  projection: its array, viewed as 4096 rows, is the input against the weights plus the bias, which is the reference's
  projection stage (Proof/Projection.lean). The stretch between the regions views that array as [batch, row, head, 192],
  swaps heads and rows, cuts the last axis into its query, key and value thirds and merges batch and head: the same
  layout operations the reference applies, so the second region finds the reference's own query, key and value stages
  with batch and head merged. The second region is attention, one head and 512 query rows per grid point: scores scaled
  by eight, a softmax along the keys, the weights against the values. The reference scales by the square root of
  sixty-four, which is eight, and computes the same row function; so the second region's array is the reference's
  attention stage with batch and head merged (Proof/Attention.lean). The last stretch splits the merged axis again and
  lays the result out as the reference does.

  No step moves a factor across a sum or cancels anything: both sides are the same sums, maxima, exponentials and
  quotients of the same extended reals, so the finiteness of the inputs is never used.

  The three frames are the generated ones (the reference's is its generated run with the result dropped); the kernel's
  idealization rewrote nothing, so there is nothing to preserve beyond the program's own text.
-/
import proofs.«108356_j5652176961587_1_alg».proof.Defs
import proofs.«108356_j5652176961587_1_alg».proof.Proof.Gen.Kernel
import proofs.«108356_j5652176961587_1_alg».proof.Proof.Gen.Kernel.Skeleton
import proofs.«108356_j5652176961587_1_alg».proof.Proof.Gen.Kernel.Launch
import proofs.«108356_j5652176961587_1_alg».proof.Proof.Gen.Kernel.Points
import proofs.«108356_j5652176961587_1_alg».proof.Proof.Gen.Kernel.Frame
import proofs.«108356_j5652176961587_1_alg».proof.Proof.Gen.KernelIdeal
import proofs.«108356_j5652176961587_1_alg».proof.Proof.Gen.KernelIdeal.Skeleton
import proofs.«108356_j5652176961587_1_alg».proof.Proof.Gen.KernelIdeal.Launch
import proofs.«108356_j5652176961587_1_alg».proof.Proof.Gen.KernelIdeal.Points
import proofs.«108356_j5652176961587_1_alg».proof.Proof.Gen.KernelIdeal.Frame
import proofs.«108356_j5652176961587_1_alg».proof.Proof.Gen.ReferenceIdeal
import proofs.«108356_j5652176961587_1_alg».proof.Proof.Gen.Pre_finite_inputs
import proofs.«108356_j5652176961587_1_alg».proof.Proof.Gen.ReferenceIdeal.Run
import proofs.«108356_j5652176961587_1_alg».proof.Proof.Gen.ReferenceIdeal.Read
import proofs.«108356_j5652176961587_1_alg».proof.Proof.WholeRun
import proofs.«108356_j5652176961587_1_alg».proof.Proof.Attention
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result stage of those arguments:
    the kernel by its whole run read back through the two regions, the reference by its own run. -/
theorem algebraic : Cert.algebraic_KernelIdeal_ReferenceIdeal := by
  intro m ρ m' ρ' _ hagree
  refine ⟨fun c => Cert.ReferenceIdeal.Read.val_main_v26 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Attention.result m ρ c), (h c).2⟩)
      (Cert.KernelIdeal.WholeRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
